-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S2048x64 : Shape := ⟨2, ![2048, 64]⟩
abbrev S2048x1 : Shape := ⟨2, ![2048, 1]⟩
abbrev S1024x64 : Shape := ⟨2, ![1024, 64]⟩
abbrev S2048x1024 : Shape := ⟨2, ![2048, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x64, .bf16⟩
  | .hbm, ⟨8, _⟩ => ⟨S8192x64, .f32⟩
  | .hbm, ⟨9, _⟩ => ⟨S8192x64, .bf16⟩
  | .hbm, ⟨10, _⟩ => ⟨S8192x8192, .f32⟩
  | .local _ .vmem, ⟨0, _⟩ => ⟨S2048x64, .bf16⟩
  | .local _ .vmem, ⟨1, _⟩ => ⟨S2048x64, .bf16⟩
  | .local _ .vmem, ⟨2, _⟩ => ⟨S2048x1, .f32⟩
  | .local _ .vmem, ⟨3, _⟩ => ⟨S2048x1, .f32⟩
  | .local _ .vmem, ⟨4, _⟩ => ⟨S1024x64, .bf16⟩
  | .local _ .vmem, ⟨5, _⟩ => ⟨S1024x64, .bf16⟩
  | .local _ .vmem, ⟨6, _⟩ => ⟨S2048x1024, .f32⟩
  | .local _ .vmem, ⟨7, _⟩ => ⟨S2048x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S2048x1_S2048x1024 : S2048x1.Broadcasts S2048x1024
  inb_S2048x1024_S2048x1024_0_0 : ∀ a, (![0, 0] : Fin 2 → Nat) a + S2048x1024.size a ≤ S2048x1024.size a
  h_S2048x1024 : 0 < S2048x1024.numel
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .bf16 = 32 ∨ (Rect.block (s := S8192x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .bf16 = 32 ∨ (Rect.block (s := S8192x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x8192.size a
  hwx0_3 : ∀ i : grid0.Coords, EltTy.bits .f32 = 32 ∨ (Rect.block (s := S8192x8192) S2048x1024.size (cc0_transform_3 i) (hinb0_3 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v4) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩

abbrev nBuf : Space → Nat
  | .hbm => 11
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.PairwiseSpec.lean ====
/-
  The table both programs compute, on the extended reals. For two arrays `a`, `b` of 8192 rows and 64 columns,

      T(n, m) = (z + Σ_k a(n,k) · log a(n,k)) − Σ_k a(n,k) · log b(m,k),

  the entropy term of row `n` of `a` (summed from `z`, the value of the zero word the host's sum starts at) less
  the cross term of row `n` of `a` with row `m` of `b`; `log` is the logarithm of the extended reals that a host
  `log` is at the ideal values. Each program is joined to this table by reading its sums at an index, nothing
  more: no law of arithmetic is used that could fail at an infinity, so the inputs' finiteness is never opened.
-/
import Idealize.ShloMosaic.PureOps.Ideal
import Idealize.ShloMosaic.PureOps.Ideal.Laws
import Idealize.ShloMosaic.Lib.ValueIdx

noncomputable section

open scoped BigOperators

namespace Cert.Pairwise

open Idealize.ShloMosaic Idealize.ShloMosaic.ValueIdx

/-- An array of 8192 rows of 64 extended reals. -/
abbrev Rows := (⟨2, ![8192, 64]⟩ : Shape).Idx → EReal
/-- A table of 8192 × 8192 extended reals. -/
abbrev Table := (⟨2, ![8192, 8192]⟩ : Shape).Idx → EReal

/-- The entropy term of row `n`: the zero word's value plus the sum along the row of `a · log a`. -/
def entropy (a : Rows) (n : Fin 8192) : EReal :=
  Ideal.ofBits .f32 0x00000000#32 + ∑ k : Fin 64, a (ix2 n k) * Ideal.log (a (ix2 n k))

/-- The cross term of row `n` of `a` with row `m` of `b`: the sum along the rows of `a · log b`. -/
def cross (a b : Rows) (n m : Fin 8192) : EReal :=
  ∑ k : Fin 64, a (ix2 n k) * Ideal.log (b (ix2 m k))

/-- The table: at (n, m), the entropy term of row `n` less the cross term of rows `n` and `m`. -/
def table (a b : Rows) : Table := fun i => entropy a (i 0) - cross a b (i 0) (i 1)

/-- The table at an index given by its two coordinates. -/
theorem table_apply (a b : Rows) (n m : Fin 8192) : table a b (ix2 n m) = entropy a n - cross a b n m := rfl

end Cert.Pairwise

end
-- ==== Proof.RefTable.lean ====
/-
  The reference's result is the table. Its program computes, with host operations only, the row sums of
  `a · log a` from a zero initial value, the product of `a` with `log b` contracted along the 64 columns, and their
  difference after the row sums are repeated along a new axis. Read at an index (n, m) at the ideal values, the
  repeated row sum is the entropy term of row `n`, the contracted product is the cross term of rows `n` and `m`,
  and the difference is the table's entry: the generated stage lemmas give each reading, and what remains is that
  the stages' index functions are the rows' indices `(n, k)` and `(m, k)`.
-/
import proofs.«128538_j18305150615592_2_alg».proof.Proof.Gen.ReferenceIdeal.Read
import proofs.«128538_j18305150615592_2_alg».proof.Proof.PairwiseSpec

noncomputable section

open scoped BigOperators

namespace Cert.ReferenceIdeal.RefTable

open Cert.ReferenceIdeal Cert.ReferenceIdeal.Gen Cert.ReferenceIdeal.Read
open Idealize.ShloMosaic Idealize.ShloMosaic.ValueIdx Cert.Pairwise

/-- The row sum read at the table's index (n, m) ranges over row `n`: its `k`-th term is at (n, k). -/
theorem entropy_index (i : S8192x8192.Idx) (k : Fin 64) :
    idx_main_v3 (idx_main_v5 (idx_main_v6 i)) k = ix2 (i 0) k :=
  funext fun a => Fin.ext (by match a with | ⟨0, _⟩ => rfl | ⟨1, _⟩ => rfl)

/-- The contraction's left factor at the table's index (n, m) is at (n, k). -/
theorem left_index (i : S8192x8192.Idx) (k : Fin 64) : lidx_main_v4 i k = ix2 (i 0) k :=
  funext fun a => Fin.ext (by match a with | ⟨0, _⟩ => rfl | ⟨1, _⟩ => rfl)

/-- The contraction's right factor at the table's index (n, m) is at (m, k). -/
theorem right_index (i : S8192x8192.Idx) (k : Fin 64) : ridx_main_v4 i k = ix2 (i 1) k :=
  funext fun a => Fin.ext (by match a with | ⟨0, _⟩ => rfl | ⟨1, _⟩ => rfl)

/-- The reference's last stage, at the ideal values, is the table of its two arguments: index by index the repeated
    row sum is the entropy term and the contracted product the cross term. -/
theorem result_eq (x0 x1 : (⟨S8192x64, .f32⟩ : BufTy).Contents (Elt Ideal)) :
    val_main_v7 (F := Ideal) x0 x1 = table x0 x1 := by
  funext i
  rw [val_main_v7_apply, val_main_v6_apply, val_main_v5_apply, val_main_v3_apply, val_main_v4_apply]
  simp only [val_main_v2_apply, val_main_v0_apply, val_main_v1_apply, val_main_cst_apply,
    Ideal.subf_def, Ideal.mulf_def, Ideal.hostUnary_log_def, Ideal.ofBits_def]
  show _ = entropy x0 (i 0) - cross x0 x1 (i 0) (i 1)
  unfold entropy cross
  refine congrArg₂ (· - ·) (congrArg (_ + ·) (Finset.sum_congr rfl fun k _ => ?_)) (Finset.sum_congr rfl fun k _ => ?_)
  · rw [entropy_index i k]
    rfl
  · rw [left_index i k, right_index i k]
    rfl

end Cert.ReferenceIdeal.RefTable

end
-- ==== Proof.TilePayload.lean ====
/-
  What the kernel's body stores, read at an index. At a grid point the body holds a block `x0` of 2048 rows of `a`,
  the column `x1` of those rows' entropy terms, and a block `x2` of 1024 rows of `log b`; it stores, as a
  2048 × 1024 tile, the column repeated along the tile's second axis less the product of `x0` with `x2` contracted
  along their 64 columns into a zero accumulator. At the ideal values the contraction into zero is the plain sum of
  products, so the tile's entry (p, q) is  x1(p, 0) − Σ_k x0(p, k) · x2(q, k).
-/
import proofs.«128538_j18305150615592_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Tile

open Cert.KernelIdeal Cert.KernelIdeal.Gen
open Idealize.ShloMosaic Idealize.ShloMosaic.ValueIdx

/-! ## The contraction's operand indices, coordinate by coordinate -/

/-- The left operand is read at the output's row. -/
theorem left_row (i : S2048x1024.Idx) (u : dot_S2048x64_S1024x64_S2048x1024_1_1_0_0_n_n.contr.Idx) :
    (dot_S2048x64_S1024x64_S2048x1024_1_1_0_0_n_n.lhsIdx i u 0).val = (i 0).val := by
  unfold DotDims.lhsIdx
  rw [dif_neg (show ¬(0 : Fin S2048x64.rank) ∈ dot_S2048x64_S1024x64_S2048x1024_1_1_0_0_n_n.lhsBatch by decide),
    dif_pos (show (0 : Fin S2048x64.rank) ∈ dot_S2048x64_S1024x64_S2048x1024_1_1_0_0_n_n.lhsNonContracting by decide)]
  rfl

/-- The left operand's column is the contracted coordinate. -/
theorem left_col (i : S2048x1024.Idx) (u : dot_S2048x64_S1024x64_S2048x1024_1_1_0_0_n_n.contr.Idx) :
    (dot_S2048x64_S1024x64_S2048x1024_1_1_0_0_n_n.lhsIdx i u 1).val = (u ⟨0, by decide⟩).val :=
  dot_S2048x64_S1024x64_S2048x1024_1_1_0_0_n_n.lhsIdx_val_of_single rfl i u

/-- The right operand is read at the row the output's column names. -/
theorem right_row (i : S2048x1024.Idx) (u : dot_S2048x64_S1024x64_S2048x1024_1_1_0_0_n_n.contr.Idx) :
    (dot_S2048x64_S1024x64_S2048x1024_1_1_0_0_n_n.rhsIdx i u 0).val = (i 1).val := by
  unfold DotDims.rhsIdx
  rw [dif_neg (show ¬(0 : Fin S1024x64.rank) ∈ dot_S2048x64_S1024x64_S2048x1024_1_1_0_0_n_n.rhsBatch by decide),
    dif_pos (show (0 : Fin S1024x64.rank) ∈ dot_S2048x64_S1024x64_S2048x1024_1_1_0_0_n_n.rhsNonContracting by decide)]
  rfl

/-- The right operand's column is the contracted coordinate. -/
theorem right_col (i : S2048x1024.Idx) (u : dot_S2048x64_S1024x64_S2048x1024_1_1_0_0_n_n.contr.Idx) :
    (dot_S2048x64_S1024x64_S2048x1024_1_1_0_0_n_n.rhsIdx i u 1).val = (u ⟨0, by decide⟩).val :=
  dot_S2048x64_S1024x64_S2048x1024_1_1_0_0_n_n.rhsIdx_val_of_single rfl i u

/-! ## The two operations of the body that are not pointwise -/

/-- The product contracted into a zero accumulator, at (p, q): the sum over the 64 columns of the left block's row `p`
    times the right block's row `q`. -/
theorem contraction_apply (l : FVec Ideal S2048x64 .bf16) (r : FVec Ideal S1024x64 .bf16) (p : Fin 2048) (q : Fin 1024) :
    matmul dot_S2048x64_S1024x64_S2048x1024_1_1_0_0_n_n none l r (constant (F := Ideal) S2048x1024 .f32 0x00000000#32) (ix2 p q)
      = ∑ k : Fin 64, l (ix2 p k) * r (ix2 q k) := by
  simp only [matmul]
  rw [Ideal.matmul_constant_zero_apply, ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 p q) ((contrEquiv1 dot_S2048x64_S1024x64_S2048x1024_1_1_0_0_n_n 64 rfl rfl).symm k) = ix2 p k :=
    funext fun a => Fin.ext (by
      match a with
      | ⟨0, _⟩ => exact left_row _ _
      | ⟨1, _⟩ => exact (left_col _ _).trans hk)
  have er : dot_S2048x64_S1024x64_S2048x1024_1_1_0_0_n_n.rhsIdx (ix2 p q) ((contrEquiv1 dot_S2048x64_S1024x64_S2048x1024_1_1_0_0_n_n 64 rfl rfl).symm k) = ix2 q k :=
    funext fun a => Fin.ext (by
      match a with
      | ⟨0, _⟩ => exact right_row _ _
      | ⟨1, _⟩ => exact (right_col _ _).trans hk)
  rw [el, er]

/-- A column repeated along a second axis of 1024, at (p, q): the column's entry `p`. -/
theorem column_repeat_apply (x : FVec Ideal S2048x1 .f32) (p : Fin 2048) (q : Fin 1024) :
    broadcastTo S2048x1024 x broadcasts_S2048x1_S2048x1024 (ix2 p q) = x (ix2 p 0) :=
  broadcastTo_apply x broadcasts_S2048x1_S2048x1024 (ix2 p q) (ix2 p 0) (fun a => match a with
    | ⟨0, _⟩ => by show p.val = if (2048 : Nat) = 1 then 0 else p.val; rw [if_neg (by decide)]
    | ⟨1, _⟩ => by show 0 = if (1 : Nat) = 1 then 0 else q.val; rw [if_pos rfl])

/-! ## The payload -/

/-- The tile the body stores, at (p, q): the entropy column's entry `p` less the sum over the 64 columns of the left
    block's row `p` times the right block's row `q`. -/
theorem payload_apply (x0 : FVec Ideal S2048x64 .bf16) (x1 : FVec Ideal S2048x1 .f32) (x2 : FVec Ideal S1024x64 .bf16)
    (p : Fin 2048) (q : Fin 1024) :
    k0_pay1 (F := Ideal) x0 x1 x2 (ix2 p q) = x1 (ix2 p 0) - ∑ k : Fin 64, x0 (ix2 p k) * x2 (ix2 q k) := by
  unfold k0_pay1
  simp only [shapeCast_self]
  rw [subf_apply, column_repeat_apply, contraction_apply]

end Cert.KernelIdeal.Tile

end
-- ==== Proof.EntryArrays.lean ====
/-
  The three arrays the kernel's region reads, as the host operations before it leave them, at the ideal values:
  the left operand's array is the first argument `a` (its change of format is the identity); the right operand's
  array is `log b` entry by entry (again through an identity change of format); and the one-column array holds,
  in row `n`, the entropy term of row `n` of `a`: the host's sum along the row of `a · log a` from its zero
  initial value, laid out as a column.
-/
import proofs.«128538_j18305150615592_2_alg».proof.Proof.Gen.KernelIdeal.Frame
import proofs.«128538_j18305150615592_2_alg».proof.Proof.PairwiseSpec
import Idealize.ShloMosaic.Lib.StableHlo.Run
import Idealize.ShloMosaic.PureOps.Ideal.Laws
import Idealize.ShloMosaic.Lib.ValueIdx
import Idealize.ShloMosaic.Lib.Pipeline.Value

noncomputable section

open scoped BigOperators

namespace Cert.KernelIdeal.Entry

open Cert.KernelIdeal Cert.KernelIdeal.Gen
open Idealize.ShloMosaic Idealize.ShloMosaic.TcCoe Idealize.SL.Sem Idealize.ShloMosaic.StableHlo
open Idealize.ShloMosaic.ValueIdx Cert.Pairwise

variable (m : (ℓ : Loc nD τ sig) → Buf (Elt Ideal) ℓ)

/-- The first argument, as launched. -/
abbrev argA (c : Dev nD) : Rows := m ((c : Thread nD τ).loc main_arg0)
/-- The second argument, as launched. -/
abbrev argB (c : Dev nD) : Rows := m ((c : Thread nD τ).loc main_arg1)

/-- The left operand's array is the first argument. -/
theorem left_array (c : Dev nD) : (V m c main_v4 : S8192x64.Idx → EReal) = argA m c := by
  dsimp only [V, hostOps0]
  after_results
  rfl

/-- The right operand's array is the logarithm of the second argument, entry by entry. -/
theorem right_array (c : Dev nD) : (V m c main_v6 : S8192x64.Idx → EReal) = fun i => Ideal.log (argB m c i) := by
  dsimp only [V, hostOps0]
  after_results
  rfl

/-- A host sum along the rows of an [8192, 64] array, read at row `n`: the initial value plus the sum of the row. -/
theorem row_sum_apply (y : FVec Ideal S8192x64 .f32) (z : FVec Ideal S_ .f32) (n : Fin 8192) :
    Host.reduceAdd (F := Ideal) y z reducesTo_S8192x64_S8192_d1 h_S_ (ix1 n)
      = z (Shape.Idx.first h_S_) + ∑ k : Fin 64, y (ix2 n k) := by
  simp only [Host.reduceAdd, Ideal.hostReduceAdd_def]
  rw [Ideal.hostReduceAdd_single reducesTo_S8192x64_S8192_d1 (by decide)]
  refine congrArg (_ + ·) (Finset.sum_congr rfl fun k _ => congrArg y (funext fun a => Fin.ext ?_))
  match a with
  | ⟨0, _⟩ => rfl
  | ⟨1, _⟩ => rfl

/-- The one-column array holds the rows' entropy terms. -/
theorem entropy_array (c : Dev nD) (i : S8192x1.Idx) :
    (V m c main_v3 : S8192x1.Idx → EReal) i = entropy (argA m c) (i 0) := by
  have e : (V m c main_v3 : S8192x1.Idx → EReal)
      = broadcastInDim S8192x1 ![0] bcast_S8192_S8192x1_0
          (Host.reduceAdd (F := Ideal) (mulf (argA m c) (Host.log (F := Ideal) (argA m c)))
            (constant (F := Ideal) S_ .f32 0x00000000#32) reducesTo_S8192x64_S8192_d1 h_S_) := by
    dsimp only [V, hostOps0]
    after_results
  rw [e]
  refine (broadcastInDim_apply _ bcast_S8192_S8192x1_0 _ i (ix1 (i 0)) (fun a => match a with
    | ⟨0, _⟩ => by show (i 0).val = if (8192 : Nat) = 1 then 0 else (i 0).val; rw [if_neg (by decide)])).trans ?_
  refine (row_sum_apply (mulf (argA m c) (Host.log (F := Ideal) (argA m c)))
    (constant (F := Ideal) S_ .f32 0x00000000#32) (i 0)).trans ?_
  rfl

end Cert.KernelIdeal.Entry

end
-- ==== Proof.TileCover.lean ====
/-
  From tiles to the table. The grid has 4 × 8 points; point (r, s) reads rows 2048·r … 2048·r + 2047 of `a` and of the
  entropy column, rows 1024·s … 1024·s + 1023 of `log b`, and writes back the 2048 × 1024 tile of the result whose
  corner is (2048·r, 1024·s). By the payload's reading, entry (p, q) of that tile is the table's entry
  (2048·r + p, 1024·s + q): each tile is a block of ONE function of the two arguments. The 32 tiles cover the
  8192 × 8192 result (index (n, m) lies in the tile of the point with r = n / 2048 and s = m / 1024), so after the run the
  result array is the table.
-/
import proofs.«128538_j18305150615592_2_alg».proof.Proof.Gen.KernelIdeal.Value
import proofs.«128538_j18305150615592_2_alg».proof.Proof.PairwiseSpec
import proofs.«128538_j18305150615592_2_alg».proof.Proof.TilePayload
import proofs.«128538_j18305150615592_2_alg».proof.Proof.EntryArrays

noncomputable section

open scoped BigOperators

namespace Cert.KernelIdeal.Tiles

open Cert.KernelIdeal Cert.KernelIdeal.Gen Cert.KernelIdeal.Value Cert.KernelIdeal.Tile Cert.KernelIdeal.Entry
open Idealize.ShloMosaic Idealize.ShloMosaic.TcCoe Idealize.SL.Sem
open Idealize.ShloMosaic.Pipeline (Dat)
open Idealize.ShloMosaic.ValueIdx Cert.Pairwise

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- The printed index maps over the 32 grid points: the left operand's and the entropy column's row blocks are the
    output's row block, the right operand's row block is the output's column block, every input's column block is 0;
    the output's block indices stay below 4 and 8. -/
theorem block_indices : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (1 : Fin 2) ∧ win0_2.index t (1 : Fin 2) = 0
    ∧ win0_3.index t (0 : Fin 2) ≤ 3 ∧ win0_3.index t (1 : Fin 2) ≤ 7 :=
  (by decide +kernel : ∀ t : Fin grid0.N, _)

/-- Every pair of block indices below (4, 8) is some point's output block. -/
theorem block_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-! ## The input blocks at a point, read where the output's tile says -/

/-- Entry (p, k) of the left block at point `t` is `a` at row 2048·r + p, column k, `r` the output's row block. -/
theorem left_block (c : Dev nD) (t : Fin cfg0.N) (p : Fin 2048) (k : Fin 64)
    (hr : win0_3.index t (0 : Fin 2) * 2048 + p.val < 8192) :
    (iblk m c 0 t : FVec Ideal S2048x64 .bf16) (ix2 p k)
      = argA m c (ix2 ⟨win0_3.index t (0 : Fin 2) * 2048 + p.val, hr⟩ k) := by
  obtain ⟨e00, e01, -⟩ := block_indices t
  show V m c main_v4 (((cfg0.win 0).blk t).view.emb (ix2 p k : S2048x64.Idx)) = _
  refine (congrFun (left_array m c) _).trans (congrArg (argA m c) (funext fun a => Fin.ext ?_))
  match a with
  | ⟨0, _⟩ => show win0_0.index t (0 : Fin 2) * 2048 + 1 * p.val = win0_3.index t (0 : Fin 2) * 2048 + p.val; omega
  | ⟨1, _⟩ => show win0_0.index t (1 : Fin 2) * 64 + 1 * k.val = k.val; omega

/-- Entry (p, 0) of the entropy column's block at point `t` is the entropy term of row 2048·r + p of `a`. -/
theorem entropy_block (c : Dev nD) (t : Fin cfg0.N) (p : Fin 2048)
    (hr : win0_3.index t (0 : Fin 2) * 2048 + p.val < 8192) :
    (iblk m c 1 t : FVec Ideal S2048x1 .f32) (ix2 p 0)
      = entropy (argA m c) ⟨win0_3.index t (0 : Fin 2) * 2048 + p.val, hr⟩ := by
  obtain ⟨-, -, e10, e11, -⟩ := block_indices t
  show V m c main_v3 (((cfg0.win 1).blk t).view.emb (ix2 p 0 : S2048x1.Idx)) = _
  refine (entropy_array m c _).trans (congrArg (entropy (argA m c)) (Fin.ext ?_))
  show win0_1.index t (0 : Fin 2) * 2048 + 1 * p.val = win0_3.index t (0 : Fin 2) * 2048 + p.val
  omega

/-- Entry (q, k) of the right block at point `t` is `log b` at row 1024·s + q, column k, `s` the output's column block. -/
theorem right_block (c : Dev nD) (t : Fin cfg0.N) (q : Fin 1024) (k : Fin 64)
    (hs : win0_3.index t (1 : Fin 2) * 1024 + q.val < 8192) :
    (iblk m c 2 t : FVec Ideal S1024x64 .bf16) (ix2 q k)
      = Ideal.log (argB m c (ix2 ⟨win0_3.index t (1 : Fin 2) * 1024 + q.val, hs⟩ k)) := by
  obtain ⟨-, -, -, -, e20, e21, -⟩ := block_indices t
  show V m c main_v6 (((cfg0.win 2).blk t).view.emb (ix2 q k : S1024x64.Idx)) = _
  refine (congrFun (right_array m c) _).trans ?_
  show Ideal.log (argB m c _) = Ideal.log (argB m c _)
  refine congrArg Ideal.log (congrArg (argB m c) (funext fun a => Fin.ext ?_))
  match a with
  | ⟨0, _⟩ => show win0_2.index t (0 : Fin 2) * 1024 + 1 * q.val = win0_3.index t (1 : Fin 2) * 1024 + q.val; omega
  | ⟨1, _⟩ => show win0_2.index t (1 : Fin 2) * 64 + 1 * k.val = k.val; omega

/-! ## What a point writes back is a block of the table -/

/-- The tile of point `t`, at (p, q), is the table at (2048·r + p, 1024·s + q). -/
theorem tile_entry (c : Dev nD) (t : Fin cfg0.N) (p : Fin 2048) (q : Fin 1024)
    (hr : win0_3.index t (0 : Fin 2) * 2048 + p.val < 8192) (hs : win0_3.index t (1 : Fin 2) * 1024 + q.val < 8192) :
    k0_pay1 (F := Ideal) (iblk m c 0 t) (iblk m c 1 t) (iblk m c 2 t) (ix2 p q)
      = table (argA m c) (argB m c)
          (ix2 ⟨win0_3.index t (0 : Fin 2) * 2048 + p.val, hr⟩ ⟨win0_3.index t (1 : Fin 2) * 1024 + q.val, hs⟩) := by
  rw [payload_apply (iblk m c 0 t) (iblk m c 1 t) (iblk m c 2 t) p q, table_apply, entropy_block m c t p hr]
  unfold cross
  refine congrArg (HSub.hSub _) (Finset.sum_congr rfl fun k _ => ?_)
  rw [left_block m c t p k hr, right_block m c t q k hs] <;> rfl

/-- WHAT POINT `t` WRITES BACK is block `t` of the table of the two arguments. -/
theorem tile_eq (c : Dev nD) (t : Fin cfg0.N) :
    (dats m 0 c).flushed 3 t = ((cfg0.win 3).blk t).view.read (Elt Ideal) (table (argA m c) (argB m c)) := by
  show (cfg0.win 3).cut (grid0.coords t) ((dats m 0 c).after 3 t) = _
  rw [after0_3]
  unfold out0_3
  rw [View.canon_unit_zero origin]
  simp only [View.ld_unit_zero (S := S2048x64) origin, View.ld_unit_zero (S := S2048x1) origin,
    View.ld_unit_zero (S := S1024x64) origin]
  obtain ⟨-, -, -, -, -, -, b0, b1⟩ := block_indices t
  funext j
  have hp : (j 0).val < 2048 := (j 0).isLt
  have hq : (j 1).val < 1024 := (j 1).isLt
  have hr : win0_3.index t (0 : Fin 2) * 2048 + (j 0).val < 8192 := by omega
  have hs : win0_3.index t (1 : Fin 2) * 1024 + (j 1).val < 8192 := by omega
  have hj : (j : S2048x1024.Idx) = ix2 (⟨(j 0).val, hp⟩ : Fin 2048) (⟨(j 1).val, hq⟩ : Fin 1024) :=
    funext fun a => by match a with | ⟨0, _⟩ => rfl | ⟨1, _⟩ => rfl
  show k0_pay1 (F := Ideal) (iblk m c 0 t) (iblk m c 1 t) (iblk m c 2 t) j
    = table (argA m c) (argB m c) (((cfg0.win 3).blk t).view.emb j)
  refine (congrArg (k0_pay1 (F := Ideal) (iblk m c 0 t) (iblk m c 1 t) (iblk m c 2 t)) hj).trans ?_
  refine (tile_entry m c t ⟨(j 0).val, hp⟩ ⟨(j 1).val, hq⟩ hr hs).trans
    (congrArg (table (argA m c) (argB m c)) (funext fun a => Fin.ext ?_))
  match a with
  | ⟨0, _⟩ => show win0_3.index t (0 : Fin 2) * 2048 + (j 0).val = win0_3.index t (0 : Fin 2) * 2048 + 1 * (j 0).val; omega
  | ⟨1, _⟩ => show win0_3.index t (1 : Fin 2) * 1024 + (j 1).val = win0_3.index t (1 : Fin 2) * 1024 + 1 * (j 1).val; omega

/-! ## The tiles cover the result -/

/-- An index of the result is in point `t`'s tile iff each coordinate is in the tile's range on its axis. -/
theorem mem_tile (t : Fin cfg0.N) (i : S8192x8192.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v7).slice (win0_3.rect t)).set ↔ _
  rw [View.set_slice_whole, Rect.mem_set_unit]
  exact Iff.rfl

/-- Every index of the result is in the tile of the point whose block indices are its coordinates' quotients by
    2048 and 1024; that point writes back. -/
theorem tiles_cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := block_onto ⟨(i 0).val / 2048, by omega⟩ ⟨(i 1).val / 1024, by omega⟩
  have q0 : win0_3.index t (0 : Fin 2) = (i 0).val / 2048 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-! ## The result array after the run, and the run -/

/-- THE RESULT ARRAY after the run is the table of the two arguments. -/
theorem final_table (c : Dev nD) : (dats m 0 c).arrAt 3 cfg0.N = table (argA m c) (argB m c) :=
  (dats m 0 c).arrAt_eq_of_cover 3 (table (argA m c) (argB m c)) (fun t _ => tile_eq m c t) tiles_cover

/-- The kernel's run at the ideal values: every weakly fair execution terminates with the result array at the table of
    the two arguments, and the arguments unchanged. -/
theorem run : θ_run defs (onTc (τ := τ) (main (F := Ideal))) ⟨m, fun _ => 0, ρ⟩ fun r => ∀ c : Dev nD,
      r.2.mem ((c : Thread nD τ).loc main_v7) = table (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_table m c), (h c).2⟩)
    (Cert.KernelIdeal.Value.run_blocks m ρ)

end Cert.KernelIdeal.Tiles

end
-- ==== Proof.lean ====
/-
  The kernel and its reference compute one table. For arguments `a`, `b` of 8192 rows and 64 columns, both end with

      T(n, m) = (z + Σ_k a(n,k) · log a(n,k)) − Σ_k a(n,k) · log b(m,k)

  in the 8192 × 8192 result, `z` the value of the zero word the row sums start at (Proof/PairwiseSpec.lean). The
  kernel forms the rows' entropy terms and `log b` with host operations, then on a 4 × 8 grid writes the table tile by
  tile, each tile the entropy column less a product contracted along the 64 columns (Proof/TilePayload.lean,
  Proof/EntryArrays.lean, Proof/TileCover.lean); the reference forms the same sums with host operations alone
  (Proof/RefTable.lean). At the ideal values a change of float format is the identity and a contraction into a zero
  accumulator is the plain sum of products, so the two agree index by index, with no use of the inputs' finiteness.
  The three frames are the generated frame runs (the reference's is its generated run with the result dropped), and the
  idealization rewrote nothing, so what it preserves is trivially so.
-/
import proofs.«128538_j18305150615592_2_alg».proof.Defs
import proofs.«128538_j18305150615592_2_alg».proof.Proof.Gen.Kernel
import proofs.«128538_j18305150615592_2_alg».proof.Proof.Gen.Kernel.Frame
import proofs.«128538_j18305150615592_2_alg».proof.Proof.Gen.KernelIdeal
import proofs.«128538_j18305150615592_2_alg».proof.Proof.Gen.KernelIdeal.Frame
import proofs.«128538_j18305150615592_2_alg».proof.Proof.Gen.KernelIdeal.Value
import proofs.«128538_j18305150615592_2_alg».proof.Proof.Gen.ReferenceIdeal
import proofs.«128538_j18305150615592_2_alg».proof.Proof.Gen.ReferenceIdeal.Run
import proofs.«128538_j18305150615592_2_alg».proof.Proof.Gen.ReferenceIdeal.Read
import proofs.«128538_j18305150615592_2_alg».proof.Proof.Gen.Pre_finite_inputs
import proofs.«128538_j18305150615592_2_alg».proof.Proof.PairwiseSpec
import proofs.«128538_j18305150615592_2_alg».proof.Proof.RefTable
import proofs.«128538_j18305150615592_2_alg».proof.Proof.TileCover
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The reference runs and leaves its arguments unchanged: its generated run, the result's clause dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the two arguments, the idealized kernel's result array ends at the table of the arguments
    (tile by tile, the tiles covering it) and the reference's at its last stage, which is the same table. -/
theorem algebraic : Cert.algebraic_KernelIdeal_ReferenceIdeal := by
  intro m ρ m' ρ' _ hagree
  refine ⟨fun c => Cert.Pairwise.table (Cert.KernelIdeal.Entry.argA m c) (Cert.KernelIdeal.Entry.argB m c),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefTable.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
